-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x128 .f32) (main_arg1 : FVec F S16x2048x128 .f32) (main_arg2 : FVec F S16x2048x128 .f32) (main_arg3 : FVec F S16x2048x2048 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x128 : Shape := ⟨3, ![16, 2048, 128]⟩
abbrev S16x2048x2048 : Shape := ⟨3, ![16, 2048, 2048]⟩
abbrev S1x2048x128 : Shape := ⟨3, ![1, 2048, 128]⟩
abbrev S1x1024x128 : Shape := ⟨3, ![1, 1024, 128]⟩
abbrev S1x2048x1024 : Shape := ⟨3, ![1, 2048, 1024]⟩
abbrev S2048x128 : Shape := ⟨2, ![2048, 128]⟩
abbrev S1024x128 : Shape := ⟨2, ![1024, 128]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x2048x1024, .f32⟩
  | .local _ .vmem, ⟨7, _⟩ => ⟨S1x2048x1024, .f32⟩
  | .local _ .vmem, ⟨8, _⟩ => ⟨S1x2048x128, .f32⟩
  | .local _ .vmem, ⟨9, _⟩ => ⟨S1x2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  dot_S2048x128_S1024x128_S2048x1024_1_1_0_0_n_n_wf : DotDims.WF S2048x128 S1024x128 S2048x1024 [1] [1] [0] [0] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x2048x128.size a
  hwx0_1 : ∀ i : grid0.Coords, EltTy.bits .f32 = 32 ∨ (Rect.block (s := S16x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S16x2048x128.size a
  hwx0_2 : ∀ i : grid0.Coords, EltTy.bits .f32 = 32 ∨ (Rect.block (s := S16x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S16x2048x2048.size a
  hwx0_3 : ∀ i : grid0.Coords, EltTy.bits .f32 = 32 ∨ (Rect.block (s := S16x2048x2048) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .f32 = 32 ∨ (Rect.block (s := S16x2048x128) S1x2048x128.size (cc0_transform_4 i) (hinb0_4 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.GatedAttention.lean ====
/-
  Attention with a logistic gate, as ONE function of the four argument arrays, and the one law of sums that joins
  the two ways of computing it.

  For a batch `b`, a query row `r` and an output column `d`,

      out[b, r, d] = ∑ n < 2048, σ(α · ⟨q[b, r, ·], k[b, n, ·]⟩ + bias[b, r, n]) · v[b, n, d],

  where ⟨·, ·⟩ is the inner product over the 128 features, σ(x) = 1 / (1 + e^(-x)) is the logistic function on
  the extended reals (σ(-∞) = 0, σ(+∞) = 1), and α is the value of the f32 word `0x3DB504F3` (the rounding of
  1/√128) that scales the scores. The word is kept as a word: it is the same on both sides of every equation
  below, so its value is never needed.

  Unlike a softmax, the gate of a pair (r, n) looks at no other key, so the sum over the keys may be taken in
  any grouping. Taking it over the keys 0 … 1023 first and over the keys 1024 … 2047 second, starting from zero,
  is `sum_key_halves`: addition of extended reals is commutative and associative, so no finiteness is needed.
-/
import Idealize.ShloMosaic.PureOps.Ideal
import Idealize.ShloMosaic.Lib.ValueIdx

noncomputable section

namespace Cert.GatedAttention

open Idealize.ShloMosaic Idealize.ShloMosaic.ValueIdx

/-- The scale of the scores, α: the value of the f32 word both programs carry. -/
def scale : EReal := Ideal.ofBits .f32 0x3DB504F3#32

/-- The gate of query row `r` and key `n` in batch `b`: the logistic function of the scaled inner product of
    the query and the key, plus the pair's bias. -/
def gate (q k : (⟨3, ![16, 2048, 128]⟩ : Shape).Idx → EReal) (bias : (⟨3, ![16, 2048, 2048]⟩ : Shape).Idx → EReal)
    (b : Fin 16) (r n : Fin 2048) : EReal :=
  Ideal.logistic (scale * (∑ j : Fin 128, q (ix3 b r j) * k (ix3 b n j)) + bias (ix3 b r n))

/-- One entry of the result: the values of batch `b` at column `d`, each weighted by its key's gate for row `r`,
    summed over all 2048 keys. -/
def entry (q k v : (⟨3, ![16, 2048, 128]⟩ : Shape).Idx → EReal) (bias : (⟨3, ![16, 2048, 2048]⟩ : Shape).Idx → EReal)
    (b : Fin 16) (r : Fin 2048) (d : Fin 128) : EReal :=
  ∑ n : Fin 2048, gate q k bias b r n * v (ix3 b n d)

/-- The whole result array. -/
def out (q k v : (⟨3, ![16, 2048, 128]⟩ : Shape).Idx → EReal) (bias : (⟨3, ![16, 2048, 2048]⟩ : Shape).Idx → EReal) :
    (⟨3, ![16, 2048, 128]⟩ : Shape).Idx → EReal := fun i =>
  entry q k v bias ⟨(i 0).val, (i 0).isLt⟩ ⟨(i 1).val, (i 1).isLt⟩ ⟨(i 2).val, (i 2).isLt⟩

theorem out_ix3 (q k v : (⟨3, ![16, 2048, 128]⟩ : Shape).Idx → EReal) (bias : (⟨3, ![16, 2048, 2048]⟩ : Shape).Idx → EReal)
    (b : Fin 16) (r : Fin 2048) (d : Fin 128) : out q k v bias (ix3 b r d) = entry q k v bias b r d := rfl

/-- The `n`-th key of the half `h` of the keys (`h = 0`: keys 0 … 1023; `h = 1`: keys 1024 … 2047). -/
def keyAt (h : Fin 2) (n : Fin 1024) : Fin 2048 := ⟨1024 * h.val + n.val, by omega⟩

theorem keyAt_val (h : Fin 2) (n : Fin 1024) : (keyAt h n).val = 1024 * h.val + n.val := rfl

/-- A sum over the 2048 keys is zero, plus the sum over the first half, plus the sum over the second half. -/
theorem sum_key_halves (f : Fin 2048 → EReal) :
    (0 + ∑ n : Fin 1024, f (keyAt 0 n)) + ∑ n : Fin 1024, f (keyAt 1 n) = ∑ n : Fin 2048, f n := by
  rw [zero_add]
  exact (Fin.sum_univ_add (M := EReal) (a := 1024) (b := 1024) f).symm

end Cert.GatedAttention

end
-- ==== Proof.RefSide.lean ====
/-
  The reference computes `GatedAttention.out`.

  Read one operation at a time, entry (b, r, d) of the reference's result is the sum over the keys `n` of
  1 · (1 / (1 + e^(-(α · ⟨q[b, r, ·], k[b, n, ·]⟩ + bias[b, r, n])))) · v[b, n, d]: the two contractions are plain sums
  on the extended reals, the quotient 1 / (1 + e^(-x)) is the logistic function by its definition, and the factor
  one (the word `0x3F800000`) drops out.
-/
import proofs.«168761_j82987358094192_2_alg».proof.Proof.Gen.ReferenceIdeal.Read
import proofs.«168761_j82987358094192_2_alg».proof.Proof.GatedAttention
import Idealize.ShloMosaic.Lib.IdealHost

noncomputable section

namespace Cert.ReferenceIdeal.AsGatedAttention

open Cert.ReferenceIdeal Cert.ReferenceIdeal.Gen Idealize.ShloMosaic Idealize.ShloMosaic.ValueIdx Cert.GatedAttention

/-- The reference's last stage, at the extended reals, is `GatedAttention.out` of the four arguments. -/
theorem result_eq (x0 x1 x2 : FVec Ideal S16x2048x128 .f32) (x3 : FVec Ideal S16x2048x2048 .f32) :
    Read.val_main_v12 (F := Ideal) x0 x1 x2 x3 = out x0 x1 x2 x3 := by
  funext i
  obtain ⟨b, r, d, rfl⟩ : ∃ (b : Fin 16) (r : Fin 2048) (d : Fin 128), i = ix3 b r d := ⟨i 0, i 1, i 2, eq_ix3 i⟩
  rw [out_ix3, Read.val_main_v12_apply]
  unfold entry
  refine Finset.sum_congr rfl fun n _ => ?_
  have e1 : Read.lidx_main_v12 (ix3 b r d) n = ix3 b r n :=
    funext fun a => Fin.ext (by match a with | ⟨0, _⟩ => rfl | ⟨1, _⟩ => rfl | ⟨2, _⟩ => rfl)
  have e2 : Read.ridx_main_v12 (ix3 b r d) n = ix3 b n d :=
    funext fun a => Fin.ext (by match a with | ⟨0, _⟩ => rfl | ⟨1, _⟩ => rfl | ⟨2, _⟩ => rfl)
  have e3 : ∀ j : Fin 128, Read.lidx_main_v0 (ix3 b r n) j = ix3 b r j := fun j =>
    funext fun a => Fin.ext (by match a with | ⟨0, _⟩ => rfl | ⟨1, _⟩ => rfl | ⟨2, _⟩ => rfl)
  have e4 : ∀ j : Fin 128, Read.ridx_main_v0 (ix3 b r n) j = ix3 b n j := fun j =>
    funext fun a => Fin.ext (by match a with | ⟨0, _⟩ => rfl | ⟨1, _⟩ => rfl | ⟨2, _⟩ => rfl)
  rw [e1, e2, Read.val_main_v11_apply, Read.val_main_v10_apply, Read.val_main_cst_2_apply, Read.val_main_v9_apply,
    Read.val_main_v8_apply, Read.val_main_cst_1_apply, Read.val_main_v7_apply, Read.val_main_v6_apply,
    Read.val_main_cst_0_apply, Read.val_main_v5_apply, Read.val_main_v4_apply, Read.val_main_v3_apply,
    Read.val_main_v2_apply, Read.val_main_v1_apply, Read.val_main_cst_apply, Read.val_main_v0_apply]
  simp only [e3, e4, Ideal.ofBits_def, Ideal.mulf_def, Ideal.addf_def, Ideal.hostDivf_def, Ideal.hostUnary_exp_def,
    Ideal.hostNegf_def, Ideal.negf_def, Ideal.ofBits_one_f32, one_mul]
  rfl

end Cert.ReferenceIdeal.AsGatedAttention

end
-- ==== Proof.TilePayload.lean ====
/-
  What one grid point adds to the output block, read at an entry.

  At a grid point the body holds the batch's query block `x0` [1, 2048, 128], one tile of 1024 keys `x1`
  [1, 1024, 128], that tile's values `x2` [1, 1024, 128], the bias columns of the tile `x3` [1, 2048, 1024] and the
  output block as the point before left it, `acc` [1, 2048, 128]. It stores, at row `r` and column `d`,

      acc[r, d] + ∑ n < 1024, σ(α · ⟨x0[r, ·], x1[n, ·]⟩ + x3[r, n]) · x2[n, d]

  (`stored_apply`): the two matrix products into a zero accumulator are plain sums over the contracted axis on the
  extended reals (`scores_apply`: queries against keys, both contracted along their features; `weighted_apply`:
  gates against values, contracted along the tile's keys), the unit leading axis of every block is dropped and put
  back, and the factor one after the logistic function drops out. The block a run starts from is zero
  (`zero_block_apply`).
-/
import proofs.«168761_j82987358094192_2_alg».proof.Proof.Gen.KernelIdeal.Skeleton
import proofs.«168761_j82987358094192_2_alg».proof.Proof.GatedAttention
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Tile

open Cert.KernelIdeal Cert.KernelIdeal.Gen Idealize.ShloMosaic Idealize.ShloMosaic.ValueIdx Cert.GatedAttention

/-- The logistic function of a vector, at an entry. -/
theorem logistic_apply {s : Shape} {φ : FTy} (a : FVec Ideal s φ) (i : s.Idx) : logistic a i = Ideal.logistic (a i) := rfl

/-! ## Queries against a tile of keys -/

theorem scores_lhs_0 (i : S2048x1024.Idx) (q : dot_S2048x128_S1024x128_S2048x1024_1_1_0_0_n_n.contr.Idx) : (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem scores_lhs_1 (i : S2048x1024.Idx) (q : dot_S2048x128_S1024x128_S2048x1024_1_1_0_0_n_n.contr.Idx) : (dot_S2048x128_S1024x128_S2048x1024_1_1_0_0_n_n.lhsIdx i q 1).val = (q ⟨0, by decide⟩).val :=
  dot_S2048x128_S1024x128_S2048x1024_1_1_0_0_n_n.lhsIdx_val_of_single rfl i q
theorem scores_rhs_0 (i : S2048x1024.Idx) (q : dot_S2048x128_S1024x128_S2048x1024_1_1_0_0_n_n.contr.Idx) : (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem scores_rhs_1 (i : S2048x1024.Idx) (q : dot_S2048x128_S1024x128_S2048x1024_1_1_0_0_n_n.contr.Idx) : (dot_S2048x128_S1024x128_S2048x1024_1_1_0_0_n_n.rhsIdx i q 1).val = (q ⟨0, by decide⟩).val :=
  dot_S2048x128_S1024x128_S2048x1024_1_1_0_0_n_n.rhsIdx_val_of_single rfl i q

/-- Row `r` of the queries against key `n` of the tile: the inner product over the 128 features. -/
theorem scores_apply (a : FVec Ideal S2048x128 .f32) (b : FVec Ideal S1024x128 .f32) (r : Fin 2048) (n : Fin 1024) :
    matmul dot_S2048x128_S1024x128_S2048x1024_1_1_0_0_n_n (some .fp32) a b (constant S2048x1024 .f32 0x00000000#32) (ix2 r n)
      = ∑ j : Fin 128, a (ix2 r j) * b (ix2 n j) := by
  refine (Ideal.matmul_constant_zero_apply dot_S2048x128_S1024x128_S2048x1024_1_1_0_0_n_n (some .fp32) a b (ix2 r n)).trans ?_
  rw [← Equiv.sum_comp (contrEquiv1 dot_S2048x128_S1024x128_S2048x1024_1_1_0_0_n_n 128 rfl rfl).symm]
  refine Finset.sum_congr rfl fun j _ => ?_
  have hj := contrEquiv1_symm_val dot_S2048x128_S1024x128_S2048x1024_1_1_0_0_n_n 128 rfl rfl j
  have el : dot_S2048x128_S1024x128_S2048x1024_1_1_0_0_n_n.lhsIdx (ix2 r n) ((contrEquiv1 dot_S2048x128_S1024x128_S2048x1024_1_1_0_0_n_n 128 rfl rfl).symm j) = ix2 r j := funext fun a => Fin.ext (by
    match a with
    | ⟨0, _⟩ => exact scores_lhs_0 _ _
    | ⟨1, _⟩ => exact (scores_lhs_1 _ _).trans hj)
  have er : dot_S2048x128_S1024x128_S2048x1024_1_1_0_0_n_n.rhsIdx (ix2 r n) ((contrEquiv1 dot_S2048x128_S1024x128_S2048x1024_1_1_0_0_n_n 128 rfl rfl).symm j) = ix2 n j := funext fun a => Fin.ext (by
    match a with
    | ⟨0, _⟩ => exact scores_rhs_0 _ _
    | ⟨1, _⟩ => exact (scores_rhs_1 _ _).trans hj)
  rw [el, er]

/-! ## Gates against the tile's values -/

theorem weighted_lhs_0 (i : S2048x128.Idx) (q : dot_S2048x1024_S1024x128_S2048x128_1_0_0_1_n_n.contr.Idx) : (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem weighted_lhs_1 (i : S2048x128.Idx) (q : dot_S2048x1024_S1024x128_S2048x128_1_0_0_1_n_n.contr.Idx) : (dot_S2048x1024_S1024x128_S2048x128_1_0_0_1_n_n.lhsIdx i q 1).val = (q ⟨0, by decide⟩).val :=
  dot_S2048x1024_S1024x128_S2048x128_1_0_0_1_n_n.lhsIdx_val_of_single rfl i q
theorem weighted_rhs_0 (i : S2048x128.Idx) (q : dot_S2048x1024_S1024x128_S2048x128_1_0_0_1_n_n.contr.Idx) : (dot_S2048x1024_S1024x128_S2048x128_1_0_0_1_n_n.rhsIdx i q 0).val = (q ⟨0, by decide⟩).val :=
  dot_S2048x1024_S1024x128_S2048x128_1_0_0_1_n_n.rhsIdx_val_of_single rfl i q
theorem weighted_rhs_1 (i : S2048x128.Idx) (q : dot_S2048x1024_S1024x128_S2048x128_1_0_0_1_n_n.contr.Idx) : (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- Row `r` of the gates against column `d` of the values: the sum over the tile's 1024 keys. -/
theorem weighted_apply (p : FVec Ideal S2048x1024 .f32) (w : FVec Ideal S1024x128 .f32) (r : Fin 2048) (d : Fin 128) :
    matmul dot_S2048x1024_S1024x128_S2048x128_1_0_0_1_n_n (some .fp32) p w (constant S2048x128 .f32 0x00000000#32) (ix2 r d)
      = ∑ n : Fin 1024, p (ix2 r n) * w (ix2 n d) := by
  refine (Ideal.matmul_constant_zero_apply dot_S2048x1024_S1024x128_S2048x128_1_0_0_1_n_n (some .fp32) p w (ix2 r d)).trans ?_
  rw [← Equiv.sum_comp (contrEquiv1 dot_S2048x1024_S1024x128_S2048x128_1_0_0_1_n_n 1024 rfl rfl).symm]
  refine Finset.sum_congr rfl fun n _ => ?_
  have hn := contrEquiv1_symm_val dot_S2048x1024_S1024x128_S2048x128_1_0_0_1_n_n 1024 rfl rfl n
  have el : dot_S2048x1024_S1024x128_S2048x128_1_0_0_1_n_n.lhsIdx (ix2 r d) ((contrEquiv1 dot_S2048x1024_S1024x128_S2048x128_1_0_0_1_n_n 1024 rfl rfl).symm n) = ix2 r n := funext fun a => Fin.ext (by
    match a with
    | ⟨0, _⟩ => exact weighted_lhs_0 _ _
    | ⟨1, _⟩ => exact (weighted_lhs_1 _ _).trans hn)
  have er : dot_S2048x1024_S1024x128_S2048x128_1_0_0_1_n_n.rhsIdx (ix2 r d) ((contrEquiv1 dot_S2048x1024_S1024x128_S2048x128_1_0_0_1_n_n 1024 rfl rfl).symm n) = ix2 n d := funext fun a => Fin.ext (by
    match a with
    | ⟨0, _⟩ => exact (weighted_rhs_0 _ _).trans hn
    | ⟨1, _⟩ => exact weighted_rhs_1 _ _)
  rw [el, er]

/-! ## The stored block -/

/-- The block a run of grid points starts from is zero at every entry. -/
theorem zero_block_apply (i : S1x2048x128.Idx) : k0_pay1 (F := Ideal) i = 0 := by
  obtain ⟨u, r, d, rfl⟩ : ∃ (u : Fin 1) (r : Fin 2048) (d : Fin 128), i = ix3 u r d := ⟨i 0, i 1, i 2, eq_ix3 i⟩
  unfold k0_pay1
  refine (shapeCast_ab_1ab_apply _ _ u r d).trans ?_
  exact Ideal.ofBits_zero_f32

/-- What a grid point stores at row `r`, column `d` of the output block: what the point before left there, plus
    the tile's values at column `d` weighted by the gates of row `r` against the tile's keys. -/
theorem stored_apply (x0 : Vec Ideal S1x2048x128 .f32) (x1 : Vec Ideal S1x1024x128 .f32) (x3 : Vec Ideal S1x2048x1024 .f32)
    (x2 : Vec Ideal S1x1024x128 .f32) (acc : Vec Ideal S1x2048x128 .f32) (u : Fin 1) (r : Fin 2048) (d : Fin 128) :
    k0_pay2 (F := Ideal) x0 x1 x3 x2 acc (ix3 u r d)
      = acc (ix3 (0 : Fin 1) r d) + ∑ n : Fin 1024,
          Ideal.logistic (scale * (∑ j : Fin 128, x0 (ix3 (0 : Fin 1) r j) * x1 (ix3 (0 : Fin 1) n j)) + x3 (ix3 (0 : Fin 1) r n))
            * x2 (ix3 (0 : Fin 1) n d) := by
  unfold k0_pay2
  refine (shapeCast_ab_1ab_apply _ _ u r d).trans ?_
  rw [addf_apply, shapeCast_1ab_ab_apply acc _ r d, weighted_apply]
  refine congrArg (acc (ix3 (0 : Fin 1) r d) + ·) (Finset.sum_congr rfl fun n _ => ?_)
  rw [shapeCast_1ab_ab_apply x2 _ n d, mulf_apply, logistic_apply, addf_apply, mulf_apply, broadcast_apply, broadcast_apply,
    scores_apply, shapeCast_1ab_ab_apply x3 _ r n]
  simp only [shapeCast_1ab_ab_apply]
  show Ideal.logistic (Ideal.ofBits .f32 0x3DB504F3#32 * _ + _) * Ideal.ofBits .f32 0x3F800000#32 * _ = _
  rw [Ideal.ofBits_one_f32, mul_one]
  rfl

end Cert.KernelIdeal.Tile

end
-- ==== Proof.KernelSide.lean ====
/-
  The idealized kernel leaves `GatedAttention.out` in its result array.

  The grid is 16 batches × 2 tiles of 1024 keys; point `t` works on batch `t / 2` and tile `t % 2`. At a point the
  query window holds the batch's whole query block, the key and value windows hold rows `1024 · (t % 2) …` of the
  batch's keys and values, and the bias window holds the same columns of the batch's bias (the `*_block` lemmas:
  each window's block read where the block sits in its array). The output block of batch `b` is set to zero and
  given the first tile's contribution at point `2b`, given the second tile's at point `2b + 1`, and then written
  back: so it holds zero, plus the sum over the first 1024 keys, plus the sum over the last 1024 keys, of the gated
  values — the sum over all 2048 keys (`run_eq`, by `GatedAttention.sum_key_halves`).
-/
import proofs.«168761_j82987358094192_2_alg».proof.Proof.Gen.KernelIdeal.Value
import proofs.«168761_j82987358094192_2_alg».proof.Proof.TilePayload

noncomputable section

namespace Cert.KernelIdeal.AsGatedAttention

open Cert.KernelIdeal Cert.KernelIdeal.Gen Idealize.ShloMosaic Idealize.ShloMosaic.TcCoe Idealize.SL.Sem
open Idealize.ShloMosaic.ValueIdx Cert.GatedAttention Cert.KernelIdeal.Tile

variable (m : (ℓ : Loc nD τ sig) → Buf (Elt Ideal) ℓ)

/-! ## Where each window's block sits at a grid point -/

/-- The query and the output windows follow the batch only. -/
theorem query_index : ∀ t : Fin cfg0.N, win0_0.index t (0 : Fin 3) = t.val / 2 ∧ win0_0.index t (1 : Fin 3) = 0
    ∧ win0_0.index t (2 : Fin 3) = 0 :=
  (by decide +kernel : ∀ t : Fin grid0.N, _)

/-- The key window follows the batch and, along the keys, the tile. -/
theorem key_index : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, _)

/-- The value window likewise. -/
theorem value_index : ∀ t : Fin cfg0.N, win0_2.index t (0 : Fin 3) = t.val / 2 ∧ win0_2.index t (1 : Fin 3) = t.val % 2
    ∧ win0_2.index t (2 : Fin 3) = 0 :=
  (by decide +kernel : ∀ t : Fin grid0.N, _)

/-- The bias window follows the batch and, along the bias's columns, the tile. -/
theorem bias_index : ∀ t : Fin cfg0.N, win0_3.index t (0 : Fin 3) = t.val / 2 ∧ win0_3.index t (1 : Fin 3) = 0
    ∧ win0_3.index t (2 : Fin 3) = t.val % 2 :=
  (by decide +kernel : ∀ t : Fin grid0.N, _)

/-- The query block at a point of batch `b` is the batch's queries. -/
theorem query_block (c : Dev nD) (t : Fin cfg0.N) (b : Fin 16) (hb : t.val / 2 = b.val) (u : Fin 1) (r : Fin 2048) (j : Fin 128) :
    (iblk m c 0 t : Vec Ideal S1x2048x128 .f32) (ix3 u r j) = m ((c : Thread nD τ).loc main_arg0) (ix3 b r j) := by
  obtain ⟨e0, e1, e2⟩ := query_index t
  unfold iblk
  rw [View.read_apply]
  show V m c main_arg0 (((cfg0.win 0).blk t).view.emb (ix3 u r j)) = V m c main_arg0 (ix3 b r j)
  refine congrArg (V m c main_arg0) (funext fun a => Fin.ext ?_)
  match a with
  | ⟨0, _⟩ => show win0_0.index t (0 : Fin 3) * 1 + 1 * u.val = b.val; omega
  | ⟨1, _⟩ => show win0_0.index t (1 : Fin 3) * 2048 + 1 * r.val = r.val; omega
  | ⟨2, _⟩ => show win0_0.index t (2 : Fin 3) * 128 + 1 * j.val = j.val; omega

/-- The key block at a point of batch `b` and tile `h` is the tile's keys. -/
theorem key_block (c : Dev nD) (t : Fin cfg0.N) (b : Fin 16) (h : Fin 2) (hb : t.val / 2 = b.val) (hh : t.val % 2 = h.val)
    (u : Fin 1) (n : Fin 1024) (j : Fin 128) :
    (iblk m c 1 t : Vec Ideal S1x1024x128 .f32) (ix3 u n j) = m ((c : Thread nD τ).loc main_arg1) (ix3 b (keyAt h n) j) := by
  obtain ⟨e0, e1, e2⟩ := key_index t
  unfold iblk
  rw [View.read_apply]
  show V m c main_arg1 (((cfg0.win 1).blk t).view.emb (ix3 u n j)) = V m c main_arg1 (ix3 b (keyAt h n) j)
  refine congrArg (V m c main_arg1) (funext fun a => Fin.ext ?_)
  match a with
  | ⟨0, _⟩ => show win0_1.index t (0 : Fin 3) * 1 + 1 * u.val = b.val; omega
  | ⟨1, _⟩ => show win0_1.index t (1 : Fin 3) * 1024 + 1 * n.val = 1024 * h.val + n.val; omega
  | ⟨2, _⟩ => show win0_1.index t (2 : Fin 3) * 128 + 1 * j.val = j.val; omega

/-- The value block at a point of batch `b` and tile `h` is the tile's values. -/
theorem value_block (c : Dev nD) (t : Fin cfg0.N) (b : Fin 16) (h : Fin 2) (hb : t.val / 2 = b.val) (hh : t.val % 2 = h.val)
    (u : Fin 1) (n : Fin 1024) (d : Fin 128) :
    (iblk m c 2 t : Vec Ideal S1x1024x128 .f32) (ix3 u n d) = m ((c : Thread nD τ).loc main_arg2) (ix3 b (keyAt h n) d) := by
  obtain ⟨e0, e1, e2⟩ := value_index t
  unfold iblk
  rw [View.read_apply]
  show V m c main_arg2 (((cfg0.win 2).blk t).view.emb (ix3 u n d)) = V m c main_arg2 (ix3 b (keyAt h n) d)
  refine congrArg (V m c main_arg2) (funext fun a => Fin.ext ?_)
  match a with
  | ⟨0, _⟩ => show win0_2.index t (0 : Fin 3) * 1 + 1 * u.val = b.val; omega
  | ⟨1, _⟩ => show win0_2.index t (1 : Fin 3) * 1024 + 1 * n.val = 1024 * h.val + n.val; omega
  | ⟨2, _⟩ => show win0_2.index t (2 : Fin 3) * 128 + 1 * d.val = d.val; omega

/-- The bias block at a point of batch `b` and tile `h` is the batch's bias at the tile's columns. -/
theorem bias_block (c : Dev nD) (t : Fin cfg0.N) (b : Fin 16) (h : Fin 2) (hb : t.val / 2 = b.val) (hh : t.val % 2 = h.val)
    (u : Fin 1) (r : Fin 2048) (n : Fin 1024) :
    (iblk m c 3 t : Vec Ideal S1x2048x1024 .f32) (ix3 u r n) = m ((c : Thread nD τ).loc main_arg3) (ix3 b r (keyAt h n)) := by
  obtain ⟨e0, e1, e2⟩ := bias_index t
  unfold iblk
  rw [View.read_apply]
  show V m c main_arg3 (((cfg0.win 3).blk t).view.emb (ix3 u r n)) = V m c main_arg3 (ix3 b r (keyAt h n))
  refine congrArg (V m c main_arg3) (funext fun a => Fin.ext ?_)
  match a with
  | ⟨0, _⟩ => show win0_3.index t (0 : Fin 3) * 1 + 1 * u.val = b.val; omega
  | ⟨1, _⟩ => show win0_3.index t (1 : Fin 3) * 2048 + 1 * r.val = r.val; omega
  | ⟨2, _⟩ => show win0_3.index t (2 : Fin 3) * 1024 + 1 * n.val = 1024 * h.val + n.val; omega

/-! ## One tile's contribution, and a batch's two points -/

/-- What a point of batch `b` and tile `h` adds at row `r`, column `d`, in the arguments' own entries: when the
    point's four blocks `x0 … x3` are the batch's queries, the tile's keys, the tile's values and the tile's bias
    columns, the sum over the block's 1024 keys is the sum of the tile's keys' gated values. -/
theorem tile_sum (Q K W : (⟨3, ![16, 2048, 128]⟩ : Shape).Idx → EReal) (B : (⟨3, ![16, 2048, 2048]⟩ : Shape).Idx → EReal)
    (x0 : Vec Ideal S1x2048x128 .f32) (x1 x2 : Vec Ideal S1x1024x128 .f32) (x3 : Vec Ideal S1x2048x1024 .f32)
    (b : Fin 16) (h : Fin 2)
    (hq : ∀ (r : Fin 2048) (j : Fin 128), x0 (ix3 (0 : Fin 1) r j) = Q (ix3 b r j))
    (hk : ∀ (n : Fin 1024) (j : Fin 128), x1 (ix3 (0 : Fin 1) n j) = K (ix3 b (keyAt h n) j))
    (hw : ∀ (n : Fin 1024) (d : Fin 128), x2 (ix3 (0 : Fin 1) n d) = W (ix3 b (keyAt h n) d))
    (hbias : ∀ (r : Fin 2048) (n : Fin 1024), x3 (ix3 (0 : Fin 1) r n) = B (ix3 b r (keyAt h n)))
    (r : Fin 2048) (d : Fin 128) :
    (∑ n : Fin 1024,
      Ideal.logistic (scale * (∑ j : Fin 128, x0 (ix3 (0 : Fin 1) r j) * x1 (ix3 (0 : Fin 1) n j)) + x3 (ix3 (0 : Fin 1) r n))
        * x2 (ix3 (0 : Fin 1) n d))
      = ∑ n : Fin 1024, gate Q K B b r (keyAt h n) * W (ix3 b (keyAt h n) d) := by
  refine Finset.sum_congr rfl fun n _ => ?_
  rw [hw, hbias]
  unfold gate
  simp only [hq, hk]

/-- The two points of batch `b` leave, at row `r` and column `d` of the output block, the batch's entry of
    `GatedAttention.out`. -/
theorem run_eq (c : Dev nD) (b : Fin 16) (t0 t1 : Fin cfg0.N) (h0 : t0.val = 2 * b.val) (h1 : t1.val = 2 * b.val + 1)
    (u : Fin 1) (r : Fin 2048) (d : Fin 128) :
    k0_pay2 (F := Ideal) (iblk m c 0 t1) (iblk m c 1 t1) (iblk m c 3 t1) (iblk m c 2 t1)
        (k0_pay2 (F := Ideal) (iblk m c 0 t0) (iblk m c 1 t0) (iblk m c 3 t0) (iblk m c 2 t0) (k0_pay1 (F := Ideal))) (ix3 u r d)
      = entry (m ((c : Thread nD τ).loc main_arg0)) (m ((c : Thread nD τ).loc main_arg1)) (m ((c : Thread nD τ).loc main_arg2))
          (m ((c : Thread nD τ).loc main_arg3)) b r d := by
  have hb0 : t0.val / 2 = b.val := by omega
  have hh0 : t0.val % 2 = (0 : Fin 2).val := by show t0.val % 2 = 0; omega
  have hb1 : t1.val / 2 = b.val := by omega
  have hh1 : t1.val % 2 = (1 : Fin 2).val := by show t1.val % 2 = 1; omega
  refine (stored_apply (iblk m c 0 t1) (iblk m c 1 t1) (iblk m c 3 t1) (iblk m c 2 t1) _ u r d).trans ?_
  refine (congrArg (· + _) ((stored_apply (iblk m c 0 t0) (iblk m c 1 t0) (iblk m c 3 t0) (iblk m c 2 t0) _ (0 : Fin 1) r d).trans
    (congrArg (· + _) (zero_block_apply _)))).trans ?_
  refine (congrArg₂ (· + ·)
    (congrArg (0 + ·) (tile_sum (m ((c : Thread nD τ).loc main_arg0)) (m ((c : Thread nD τ).loc main_arg1))
      (m ((c : Thread nD τ).loc main_arg2)) (m ((c : Thread nD τ).loc main_arg3))
      (iblk m c 0 t0) (iblk m c 1 t0) (iblk m c 2 t0) (iblk m c 3 t0) b 0
      (fun r j => query_block m c t0 b hb0 0 r j) (fun n j => key_block m c t0 b 0 hb0 hh0 0 n j)
      (fun n d => value_block m c t0 b 0 hb0 hh0 0 n d) (fun r n => bias_block m c t0 b 0 hb0 hh0 0 r n) r d))
    (tile_sum (m ((c : Thread nD τ).loc main_arg0)) (m ((c : Thread nD τ).loc main_arg1))
      (m ((c : Thread nD τ).loc main_arg2)) (m ((c : Thread nD τ).loc main_arg3))
      (iblk m c 0 t1) (iblk m c 1 t1) (iblk m c 2 t1) (iblk m c 3 t1) b 1
      (fun r j => query_block m c t1 b hb1 0 r j) (fun n j => key_block m c t1 b 1 hb1 hh1 0 n j)
      (fun n d => value_block m c t1 b 1 hb1 hh1 0 n d) (fun r n => bias_block m c t1 b 1 hb1 hh1 0 r n) r d)).trans ?_
  exact sum_key_halves (fun n => gate (m ((c : Thread nD τ).loc main_arg0)) (m ((c : Thread nD τ).loc main_arg1))
    (m ((c : Thread nD τ).loc main_arg3)) b r n * m ((c : Thread nD τ).loc main_arg2) (ix3 b n d))

/-! ## The result array -/

/-- The array the kernel's run ends with is `GatedAttention.out` of the four arguments. -/
theorem result_eq (c : Dev nD) :
    Value.G4 (F := Ideal) m c = out (m ((c : Thread nD τ).loc main_arg0)) (m ((c : Thread nD τ).loc main_arg1))
      (m ((c : Thread nD τ).loc main_arg2)) (m ((c : Thread nD τ).loc main_arg3)) := by
  funext i
  obtain ⟨b, r, d, rfl⟩ : ∃ (b : Fin 16) (r : Fin 2048) (d : Fin 128), i = ix3 b r d := ⟨i 0, i 1, i 2, eq_ix3 i⟩
  have hN : cfg0.N = 32 := N_0
  have hb := b.isLt
  have hr' := r.isLt
  have hd := d.isLt
  have hr : Value.run4Of (ix3 b r d) = b.val := by
    show 1 * (b.val / 1 - 0) + 1 * (r.val / 2048 - 0) + 1 * (d.val / 128 - 0) = b.val
    omega
  have hl : Value.loc4Of (ix3 b r d) = ix3 (0 : Fin 1) r d := funext fun a => Fin.ext (by
    match a with
    | ⟨0, _⟩ => show b.val % 1 = 0; omega
    | ⟨1, _⟩ => show r.val % 2048 = r.val; omega
    | ⟨2, _⟩ => show d.val % 128 = d.val; omega)
  unfold Value.G4
  rw [dif_pos (by rw [hr, hN]; omega), Pipeline.accAt_succ, Pipeline.accAt_zero, hl, out_ix3]
  unfold Value.step4 Value.reset4
  exact run_eq m c b _ _ (by show 2 * Value.run4Of (ix3 b r d) = 2 * b.val; rw [hr])
    (by show 2 * Value.run4Of (ix3 b r d) + (0 + 1) = 2 * b.val + 1; rw [hr]) (0 : Fin 1) r d

end Cert.KernelIdeal.AsGatedAttention

end
-- ==== Proof.lean ====
/-
  The kernel, its idealization and the jnp reference all compute attention with a logistic gate,

      out[b, r, d] = ∑ n < 2048, σ(α · ⟨q[b, r, ·], k[b, n, ·]⟩ + bias[b, r, n]) · v[b, n, d]

  (Proof/GatedAttention.lean: σ the logistic function on the extended reals, α the f32 rounding of 1/√128, the
  same word in both programs).

  The reference takes the sum over a batch's 2048 keys at once (Proof/RefSide.lean). The kernel visits each batch at
  two grid points, one per tile of 1024 keys: the first sets the output block to zero and adds the first tile's gated
  values, the second adds the second tile's, and the block is then written back (Proof/TilePayload.lean: what one
  point stores; Proof/KernelSide.lean: which rows of the arguments a point's blocks are, and the two points
  together). A gate looks at its own key only, so the two half sums, added to zero, are the whole sum: that is
  associativity of addition on the extended reals, which holds at the infinities too, so the finiteness of the
  inputs is not used.

  Idealizing the kernel rewrote no operation, so there is nothing to preserve. Each program's frame is its run with
  the result forgotten.
-/
import proofs.«168761_j82987358094192_2_alg».proof.Defs
import proofs.«168761_j82987358094192_2_alg».proof.Proof.Gen.Kernel.Frame
import proofs.«168761_j82987358094192_2_alg».proof.Proof.Gen.KernelIdeal.Value
import proofs.«168761_j82987358094192_2_alg».proof.Proof.Gen.Pre_finite_inputs
import proofs.«168761_j82987358094192_2_alg».proof.Proof.Gen.ReferenceIdeal.Run
import proofs.«168761_j82987358094192_2_alg».proof.Proof.RefSide
import proofs.«168761_j82987358094192_2_alg».proof.Proof.KernelSide
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on q, k, v and bias, the idealized kernel and the idealized reference both end
    with `GatedAttention.out` of those four arrays in their result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v12_eq, Cert.ReferenceIdeal.AsGatedAttention.result_eq,
    Cert.KernelIdeal.AsGatedAttention.result_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
